-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S1x256x4096 : Shape := ⟨3, ![1, 256, 4096]⟩
abbrev S1x256 : Shape := ⟨2, ![1, 256]⟩
abbrev S1x256x1 : Shape := ⟨3, ![1, 256, 1]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x4096_S1x256x4096_0_0_0 : ∀ a, (![0, 0, 0] : Fin 3 → Nat) a + S1x256x4096.size a ≤ S1x256x4096.size a
  h_S1x256x4096 : 0 < S1x256x4096.numel
  reduces_S1x256x4096_S1x256 : S1x256x4096.Reduces [2] S1x256
  shapeCasts_S1x256_S1x256x1 : S1x256.ShapeCasts S1x256x1
  broadcasts_S1x256x1_S1x256x4096 : S1x256x1.Broadcasts S1x256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S4x4096x4096.size a
  hwx0_1 : ∀ i : grid0.Coords, EltTy.bits .f32 = 32 ∨ (Rect.block (s := S4x4096x4096) S1x256x4096.size (cc0_transform_1 i) (hinb0_1 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4x4096, .f32⟩
  | .hbm, ⟨3, _⟩ => ⟨S4x4096x1, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_cst_7 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)

variable [Facts₀]

class Facts : Prop extends Facts₀ where

variable [Facts]
-- ==== Proof.QuantSpec.lean ====
/-
  Per-token fake quantization as ONE function of the input array, on the extended reals.

  For a row x(b, r, ·) of 4096 entries let lo and hi be its smallest and largest entry (folded from +∞ and
  from −∞). The row's scale is s = clip((hi − lo) / 255, ε, 10⁴), its zero point z = clip((0 − lo) / s, −10⁴, 10⁴),
  and each entry x goes to (clip(round(x / s) + z, 0, 255) − z) · s, rounding to nearest with ties to even.
  The constants are kept as the binary words both programs spell; only three of them are ever evaluated
  (10⁴ and ε, to know the scale is a positive real, and 0).

  Two laws join the two programs to this function. The zero point may be written with −lo in place of 0 − lo
  (`zero_sub`, true on all extended reals). And the rounding may be written "straight through",
  v + (round v − v): that is round v exactly when v is a real number — at v = ±∞ the difference ∞ − ∞ is not
  zero — and v = x / s is real because x is finite and s, being clipped into [ε, 10⁴], is a positive real.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The arrays' index set: 4 batches × 4096 tokens × 4096 features. -/
abbrev Arr : Shape := ⟨3, ![4, 4096, 4096]⟩

/-- 255, the top of the 8-bit range. -/
abbrev qmax : EReal := Ideal.ofBits .f32 0x437F0000#32
/-- ε, the smallest scale allowed (the float nearest 10⁻⁵). -/
abbrev scaleMin : EReal := Ideal.ofBits .f32 0x3727C5AC#32
/-- 10⁴, the largest scale and the largest zero point allowed. -/
abbrev clipMax : EReal := Ideal.ofBits .f32 0x461C4000#32
/-- −10⁴, the smallest zero point allowed. -/
abbrev clipMin : EReal := Ideal.ofBits .f32 0xC61C4000#32
/-- 0, the bottom of the 8-bit range. -/
abbrev qmin : EReal := Ideal.ofBits .f32 0x00000000#32

/-- The smallest entry of row (b, r), folded from +∞. -/
def rowMin (x : Arr.Idx → EReal) (b : Fin 4) (r : Fin 4096) : EReal :=
  (Finset.univ : Finset (Fin 4096)).fold min (Ideal.ofBits .f32 0x7F800000#32) fun k => x (ix3 b r k)

/-- The largest entry of row (b, r), folded from −∞. -/
def rowMax (x : Arr.Idx → EReal) (b : Fin 4) (r : Fin 4096) : EReal :=
  (Finset.univ : Finset (Fin 4096)).fold max (Ideal.ofBits .f32 0xFF800000#32) fun k => x (ix3 b r k)

/-- A row's scale from its largest and smallest entry: the range over 255, clipped into [ε, 10⁴]. -/
def scale (hi lo : EReal) : EReal := min clipMax (max scaleMin (Ideal.div (hi - lo) qmax))

/-- A row's zero point from its smallest entry and its scale, clipped into [−10⁴, 10⁴]. -/
def zeroPoint (lo s : EReal) : EReal := min clipMax (max clipMin (Ideal.div (qmin - lo) s))

/-- One entry quantized at scale `s` and zero point `z` and mapped back. -/
def requant (v s z : EReal) : EReal :=
  (min qmax (max qmin (Ideal.liftRound Ideal.roundHalfEven (Ideal.div v s) + z)) - z) * s

/-- The whole array, quantized row by row and mapped back. -/
def fakeQuant (x : Arr.Idx → EReal) : Arr.Idx → EReal := fun i =>
  requant (x i) (scale (rowMax x (i 0) (i 1)) (rowMin x (i 0) (i 1)))
    (zeroPoint (rowMin x (i 0) (i 1)) (scale (rowMax x (i 0) (i 1)) (rowMin x (i 0) (i 1))))

/-! ## The constants that are evaluated -/

theorem clipMax_eq : clipMax = ((10000 : ℝ) : EReal) := by
  simp [Ideal.ofBits, Ideal.ieee, -EReal.coe_mul]; norm_num

theorem scaleMin_eq : scaleMin = ((10995116 / 2 ^ 40 : ℝ) : EReal) := by
  simp [Ideal.ofBits, Ideal.ieee, -EReal.coe_mul]; norm_num

theorem qmin_eq : qmin = 0 := Ideal.ofBits_zero_f32

/-! ## The scale is a positive real -/

/-- Whatever the row's range is — even infinite or undefined — the clipped scale lies in [ε, 10⁴], so it is a positive real. -/
theorem scale_pos_real (hi lo : EReal) : ∃ t : ℝ, 0 < t ∧ scale hi lo = (t : EReal) := by
  have hle : scale hi lo ≤ ((10000 : ℝ) : EReal) := by
    unfold scale; rw [clipMax_eq]; exact min_le_left _ _
  have hpos : (0 : EReal) < scale hi lo := by
    unfold scale; rw [clipMax_eq, scaleMin_eq]
    refine lt_min ?_ (lt_of_lt_of_le ?_ (le_max_left _ _))
    · exact_mod_cast (by norm_num : (0 : ℝ) < 10000)
    · exact_mod_cast (by positivity : (0 : ℝ) < 10995116 / 2 ^ 40)
  have hne_top : scale hi lo ≠ ⊤ := ne_top_of_le_ne_top (EReal.coe_ne_top _) hle
  have hne_bot : scale hi lo ≠ ⊥ := ne_bot_of_gt hpos
  refine ⟨(scale hi lo).toReal, ?_, (EReal.coe_toReal hne_top hne_bot).symm⟩
  have h := hpos
  rw [← EReal.coe_toReal hne_top hne_bot] at h
  exact_mod_cast h

/-! ## The two laws -/

/-- 0 − lo is −lo, on every extended real. -/
theorem qmin_sub (lo : EReal) : qmin - lo = -lo := by rw [qmin_eq, zero_sub]

/-- A real over a nonzero real is a real. -/
theorem div_real (r t : ℝ) (ht : t ≠ 0) : Ideal.div (r : EReal) (t : EReal) = ((r / t : ℝ) : EReal) := by
  rw [Ideal.div_coe ht, ← EReal.coe_mul, mul_one_div]

/-- The straight-through rounding of a REAL v, v + (round v − v), is round v. -/
theorem add_round_sub (f : ℝ → ℤ) (v : ℝ) :
    (v : EReal) + (Ideal.liftRound f (v : EReal) - (v : EReal)) = Ideal.liftRound f (v : EReal) := by
  rw [Ideal.liftRound_coe, ← EReal.coe_sub, ← EReal.coe_add, add_sub_cancel]

/-- So an entry that is a real, quantized straight through at a positive real scale, is `requant` of it. -/
theorem requant_straight_through (r t : ℝ) (ht : t ≠ 0) (z : EReal) :
    (min qmax (max qmin ((Ideal.div (r : EReal) (t : EReal)
        + (Ideal.liftRound Ideal.roundHalfEven (Ideal.div (r : EReal) (t : EReal)) - Ideal.div (r : EReal) (t : EReal))) + z)) - z) * (t : EReal)
      = requant (r : EReal) (t : EReal) z := by
  unfold requant
  rw [div_real r t ht, add_round_sub]

end Cert.Quant

end
-- ==== Proof.FiniteInput.lean ====
/-
  The precondition says every entry of the input is finite: |x| < +∞ at every index, all of them and-ed into one bit.
  Read back, every entry is a real number — the only extended reals whose absolute value max(x, −x) is below +∞.
-/
import proofs.«180864_j14207751815302_1_alg».proof.Pre_finite_inputs
import proofs.«180864_j14207751815302_1_alg».proof.Proof.QuantSpec
import Idealize.ShloMosaic.Lib.ReduceAll
import Idealize.ShloMosaic.Lib.ValueIdx

noncomputable section

namespace Cert.Quant

open Idealize.ShloMosaic

/-- The word 0x7F800000 is +∞. -/
theorem posInf_eq : Ideal.ofBits .f32 0x7F800000#32 = ⊤ := by
  simp [Ideal.ofBits, Ideal.ieee]

/-- Under the precondition every entry of the input is a real number. -/
theorem real_of_finite [Cert.Pre_finite_inputs.Facts] (x : Arr.Idx → EReal)
    (h : Cert.Pre_finite_inputs.fn (F := Ideal) x = fun _ => 1#1) (i : Arr.Idx) :
    ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  have hi' : Ideal.cmp .olt (max (x i) (-(x i))) (Ideal.ofBits .f32 0x7F800000#32) = 1#1 := hi
  rw [posInf_eq] at hi'
  have hlt : max (x i) (-(x i)) < (⊤ : EReal) := by
    by_contra hn
    have h1 : Ideal.cmp .olt (max (x i) (-(x i))) ⊤ = 0#1 := by
      show BitVec.ofBool (decide (max (x i) (-(x i)) < ⊤)) = 0#1
      rw [decide_eq_false hn]; rfl
    rw [h1] at hi'
    exact absurd hi' (by decide)
  induction hx : x i using EReal.rec with
  | bot => rw [hx] at hlt; simp at hlt
  | coe r => exact ⟨r, rfl⟩
  | top => rw [hx] at hlt; simp at hlt

end Cert.Quant

end
-- ==== Proof.RefIsQuant.lean ====
/-
  The reference computes `fakeQuant` of a finite input.

  Its two reductions over the feature axis are the row's minimum and maximum as folds over the 4096 features;
  everything after them acts on one entry of the row at a time. Its zero point is written with −lo and its rounding
  straight through, v + (round v − v): the two laws of the specification turn both into the specification's form, the
  second because the entry is a real and the scale a positive real.
-/
import proofs.«180864_j14207751815302_1_alg».proof.Proof.Gen.ReferenceIdeal.Read
import proofs.«180864_j14207751815302_1_alg».proof.Proof.QuantSpec
import Idealize.ShloMosaic.PureOps.Ideal.Laws
import Idealize.ShloMosaic.PureOps.Reduce
import Idealize.ShloMosaic.Lib.ValueIdx

noncomputable section

namespace Cert.Quant.Ref

open Idealize.ShloMosaic Idealize.ShloMosaic.ValueIdx
open Cert.ReferenceIdeal Cert.ReferenceIdeal.Read Cert.Quant

open Cert.ReferenceIdeal.Gen

/-- Dropping the feature axis of the array's shape leaves the (batch, token) shape. -/
theorem dropFeature : S4x4096x4096.Reduces [2] S4x4096 := by decide

/-- The index over (b, r) with feature k inserted is (b, r, k). -/
theorem lift_eq (j : S4x4096.Idx) (k : Fin 4096) : dropFeature.lift j k = ix3 (j 0) (j 1) k := by
  funext c
  match c with
  | ⟨0, _⟩ => exact Fin.ext rfl
  | ⟨1, _⟩ => exact Fin.ext rfl
  | ⟨2, _⟩ => exact Fin.ext rfl

/-- The reference's minimum over the feature axis, at (b, r), is the row's minimum. -/
theorem min_stage (x : FVec Ideal S4x4096x4096 .f32) (j : S4x4096.Idx) :
    val_main_v0 (F := Ideal) x j = rowMin x (j 0) (j 1) := by
  unfold val_main_v0
  refine (Host.reduce_eq_fold_single (FloatOps.minimumf (F := Ideal) (φ := .f32)) x (val_main_cst (F := Ideal))
    reducesTo_S4x4096x4096_S4x4096_d2 dropFeature h_S_ j).trans ?_
  have e : (x ∘ dropFeature.lift j) = fun k : Fin 4096 => x (ix3 (j 0) (j 1) k) := funext fun k => congrArg x (lift_eq j k)
  rw [e]
  rfl

/-- The reference's maximum over the feature axis, at (b, r), is the row's maximum. -/
theorem max_stage (x : FVec Ideal S4x4096x4096 .f32) (j : S4x4096.Idx) :
    val_main_v2 (F := Ideal) x j = rowMax x (j 0) (j 1) := by
  unfold val_main_v2
  refine (Host.reduce_eq_fold_single (FloatOps.maximumf (F := Ideal) (φ := .f32)) x (val_main_cst_0 (F := Ideal))
    reducesTo_S4x4096x4096_S4x4096_d2 dropFeature h_S_ j).trans ?_
  have e : (x ∘ dropFeature.lift j) = fun k : Fin 4096 => x (ix3 (j 0) (j 1) k) := funext fun k => congrArg x (lift_eq j k)
  rw [e]
  rfl

/-- One entry as the reference computes it from the entry v and its row's largest and smallest entries — the zero point
    from −lo, the rounding straight through — is `requant` of v at the row's scale and zero point, when v is a real. -/
theorem entry_eq (v hi lo : EReal) (hv : ∃ r : ℝ, v = (r : EReal)) :
    (min qmax (max qmin ((Ideal.div v (scale hi lo)
          + (Ideal.liftRound Ideal.roundHalfEven (Ideal.div v (scale hi lo)) - Ideal.div v (scale hi lo)))
          + min clipMax (max clipMin (Ideal.div (-lo) (scale hi lo)))))
        - min clipMax (max clipMin (Ideal.div (-lo) (scale hi lo)))) * scale hi lo
      = requant v (scale hi lo) (zeroPoint lo (scale hi lo)) := by
  obtain ⟨r, rfl⟩ := hv
  obtain ⟨t, ht, hs⟩ := scale_pos_real hi lo
  rw [hs]
  unfold zeroPoint
  rw [qmin_sub]
  exact requant_straight_through r t ht.ne' _

/-- The reference's scale column, at (b, r, 0), is the row's scale. -/
theorem scale_stage (x : FVec Ideal S4x4096x4096 .f32) (k : S4x4096x1.Idx) :
    val_main_v7 (F := Ideal) x k = scale (rowMax x (k 0) (k 1)) (rowMin x (k 0) (k 1)) := by
  rw [val_main_v7_apply, val_main_call0_v4_apply, val_main_call0_v3_apply, val_main_cst_3_apply,
    val_main_call0_v2_apply, val_main_call0_v1_apply, val_main_call0_v0_apply, val_main_cst_2_apply,
    val_main_v6_apply, val_main_v5_apply, val_main_cst_1_apply, val_main_v4_apply, val_main_v3_apply,
    val_main_v1_apply, min_stage, max_stage]
  rfl

/-- The reference's zero-point column, at (b, r, 0): −lo over the row's scale, clipped. -/
theorem zero_stage (x : FVec Ideal S4x4096x4096 .f32) (k : S4x4096x1.Idx) :
    val_main_v10 (F := Ideal) x k
      = min clipMax (max clipMin (Ideal.div (-(rowMin x (k 0) (k 1))) (scale (rowMax x (k 0) (k 1)) (rowMin x (k 0) (k 1))))) := by
  rw [val_main_v10_apply, val_main_call1_v4_apply, val_main_call1_v3_apply, val_main_cst_5_apply,
    val_main_call1_v2_apply, val_main_call1_v1_apply, val_main_call1_v0_apply, val_main_cst_4_apply,
    val_main_v9_apply, val_main_v8_apply, val_main_v1_apply, min_stage, scale_stage]
  rfl

/-- The reference's result at (b, r, d) from the entry, the row's scale column and its zero-point column. -/
theorem result_stage (x : FVec Ideal S4x4096x4096 .f32) (i : S4x4096x4096.Idx) :
    val_main_v22 (F := Ideal) x i
      = (min qmax (max qmin ((Ideal.div (x i) (val_main_v7 (F := Ideal) x (idx_main_v11 i))
            + (Ideal.liftRound Ideal.roundHalfEven (Ideal.div (x i) (val_main_v7 (F := Ideal) x (idx_main_v11 i)))
                - Ideal.div (x i) (val_main_v7 (F := Ideal) x (idx_main_v11 i))))
            + val_main_v10 (F := Ideal) x (idx_main_v16 i)))
          - val_main_v10 (F := Ideal) x (idx_main_v19 i)) * val_main_v7 (F := Ideal) x (idx_main_v21 i) := by
  rw [val_main_v22_apply, val_main_v21_apply, val_main_v20_apply, val_main_v19_apply, val_main_v18_apply,
    val_main_call3_v4_apply, val_main_call3_v3_apply, val_main_cst_7_apply, val_main_call3_v2_apply,
    val_main_call3_v1_apply, val_main_call3_v0_apply, val_main_cst_6_apply, val_main_v17_apply, val_main_v16_apply,
    val_main_v15_apply, val_main_v14_apply, val_main_v13_apply, val_main_v12_apply, val_main_v11_apply]
  rfl

/-- THE REFERENCE IS THE SPECIFICATION on an input whose entries are all real. -/
theorem ref_eq (x : FVec Ideal S4x4096x4096 .f32) (hx : ∀ i, ∃ r : ℝ, x i = (r : EReal)) :
    val_main_v22 (F := Ideal) x = fakeQuant x := by
  funext i
  rw [result_stage]
  simp only [scale_stage, zero_stage]
  exact entry_eq (x i) (rowMax x (i 0) (i 1)) (rowMin x (i 0) (i 1)) (hx i)

end Cert.Quant.Ref

end
-- ==== Proof.LibReduceMin.lean ====
/-
  A minimum over one axis, read at an index.

  At the ideal values a `vector.multi_reduction <minimumf>` over ONE axis is, at each index of the result, the fold of
  `min` from the accumulator's value over that axis's coordinates — the companion of the library's statement for
  `<maximumf>`. General: any shapes, any axis, any float format.
-/
import Idealize.ShloMosaic.PureOps.Ideal.Laws
import Idealize.ShloMosaic.PureOps.Reduce

namespace Idealize.ShloMosaic.Ideal

variable {φ : FTy}

/-- A float `vector.multi_reduction <minimumf>` over one axis `a`, read at the ideal values at result index `j`: the fold of
    `min` from the accumulator's value over the coordinates `k` of axis `a`, the source read at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.KernelRow.lean ====
/-
  What the kernel's body computes from one block, entry by entry.

  A block is 256 rows of 4096 entries. The body reduces each row to its smallest and its largest entry, keeps them as
  a column, computes the row's scale and zero point on that column, and spreads both back along the row: at entry
  (r, d) the result is `requant` of the block's entry at the scale and zero point of row r — the specification's
  formula with the block's row in place of the array's.
-/
import proofs.«180864_j14207751815302_1_alg».proof.Proof.Gen.KernelIdeal.Skeleton
import proofs.«180864_j14207751815302_1_alg».proof.Proof.QuantSpec
import proofs.«180864_j14207751815302_1_alg».proof.Proof.LibReduceMin
import Idealize.ShloMosaic.Lib.Pipeline.Value
import Idealize.ShloMosaic.Lib.ValueIdx

noncomputable section

namespace Cert.Quant.Kernel

open Idealize.ShloMosaic Idealize.ShloMosaic.ValueIdx
open Cert.KernelIdeal Cert.KernelIdeal.Gen Cert.Quant

/-- The smallest entry of row r of a block, folded from +∞. -/
def blockRowMin (P : FVec Ideal S1x256x4096 .f32) (z : Fin 1) (r : Fin 256) : EReal :=
  (Finset.univ : Finset (Fin 4096)).fold min (Ideal.ofBits .f32 0x7F800000#32) fun k => P (ix3 z r k)

/-- The largest entry of row r of a block, folded from −∞. -/
def blockRowMax (P : FVec Ideal S1x256x4096 .f32) (z : Fin 1) (r : Fin 256) : EReal :=
  (Finset.univ : Finset (Fin 4096)).fold max (Ideal.ofBits .f32 0xFF800000#32) fun k => P (ix3 z r k)

/-- The block index over row (z, r) with entry k inserted is (z, r, k). -/
theorem lift_eq (j : S1x256.Idx) (k : Fin 4096) :
    reduces_S1x256x4096_S1x256.lift j k = ix3 (j 0) (j 1) k := by
  funext c
  match c with
  | ⟨0, _⟩ => exact Fin.ext rfl
  | ⟨1, _⟩ => exact Fin.ext rfl
  | ⟨2, _⟩ => exact Fin.ext rfl

/-- The body's minimum over the lanes, at row (z, r), is that row's smallest entry. -/
theorem lane_min (P : FVec Ideal S1x256x4096 .f32) (z : Fin 1) (r : Fin 256) :
    multiReduction (F := Ideal) .minimumf [2] S1x256 P 0x7F800000#32 reduces_S1x256x4096_S1x256 (.inl rfl) rfl (ix2 z r)
      = blockRowMin P z r := by
  refine (Ideal.multiReduction_minimumf_single (φ := .f32) (s := S1x256x4096) (t := S1x256) (a := (2 : Fin 3)) P 0x7F800000#32
    reduces_S1x256x4096_S1x256 (.inl rfl) rfl (ix2 z r)).trans ?_
  have e : (P ∘ reduces_S1x256x4096_S1x256.lift (ix2 z r)) = fun k : Fin 4096 => P (ix3 z r k) :=
    funext fun k => congrArg P (lift_eq (ix2 z r) k)
  rw [e]
  rfl

/-- The body's maximum over the lanes, at row (z, r), is that row's largest entry. -/
theorem lane_max (P : FVec Ideal S1x256x4096 .f32) (z : Fin 1) (r : Fin 256) :
    multiReduction (F := Ideal) .maximumf [2] S1x256 P 0xFF800000#32 reduces_S1x256x4096_S1x256 (.inl rfl) rfl (ix2 z r)
      = blockRowMax P z r := by
  refine (Ideal.multiReduction_maximumf_single (φ := .f32) (s := S1x256x4096) (t := S1x256) (a := (2 : Fin 3)) P 0xFF800000#32
    reduces_S1x256x4096_S1x256 (.inl rfl) rfl (ix2 z r)).trans ?_
  have e : (P ∘ reduces_S1x256x4096_S1x256.lift (ix2 z r)) = fun k : Fin 4096 => P (ix3 z r k) :=
    funext fun k => congrArg P (lift_eq (ix2 z r) k)
  rw [e]
  rfl

/-- A per-row value kept as a column: the column's entry (z, r, 0) is the value at row (z, r). -/
theorem column_apply (u : FVec Ideal S1x256 .f32) (z : Fin 1) (r : Fin 256) (w : Fin 1) :
    shapeCast S1x256x1 u shapeCasts_S1x256_S1x256x1 (ix3 z r w) = u (ix2 z r) := by
  refine shapeCast_apply u shapeCasts_S1x256_S1x256x1 (ix3 z r w) (ix2 z r) ?_
  rw [Shape.rowMajor_val_two, Shape.rowMajor_val_three]
  show z.val * 256 + r.val = (z.val * 256 + r.val) * 1 + w.val
  have := w.isLt
  omega

/-- A column spread along the row: entry (z, r, d) of the spread is the column's entry (z, r, 0). -/
theorem spread_apply (u : FVec Ideal S1x256x1 .f32) (z : Fin 1) (r : Fin 256) (d : Fin 4096) :
    broadcastTo S1x256x4096 u broadcasts_S1x256x1_S1x256x4096 (ix3 z r d) = u (ix3 z r (0 : Fin 1)) := by
  refine broadcastTo_apply u broadcasts_S1x256x1_S1x256x4096 (ix3 z r d) (ix3 z r (0 : Fin 1)) fun a => ?_
  match a with
  | ⟨0, _⟩ => show z.val = if (1 : Nat) = 1 then 0 else z.val; rw [if_pos rfl]; have := z.isLt; omega
  | ⟨1, _⟩ => show r.val = if (256 : Nat) = 1 then 0 else r.val; rw [if_neg (by decide)]
  | ⟨2, _⟩ => show (0 : Nat) = if (1 : Nat) = 1 then 0 else d.val; rw [if_pos rfl]

/-- The body's scale column: per row, the row's range over 255, clipped into [ε, 10⁴]. -/
def scaleColumn (P : FVec Ideal S1x256x4096 .f32) : FVec Ideal S1x256x1 .f32 :=
  minimumf (broadcast S1x256x1 (Scalar.ofBits .f32 0x461C4000#32))
    (maximumf (broadcast S1x256x1 (Scalar.ofBits .f32 0x3727C5AC#32))
      (divf
        (subf
          (shapeCast S1x256x1 (multiReduction .maximumf [2] S1x256 P 0xFF800000#32 reduces_S1x256x4096_S1x256 (.inl rfl) rfl) shapeCasts_S1x256_S1x256x1)
          (shapeCast S1x256x1 (multiReduction .minimumf [2] S1x256 P 0x7F800000#32 reduces_S1x256x4096_S1x256 (.inl rfl) rfl) shapeCasts_S1x256_S1x256x1))
        (broadcast S1x256x1 (Scalar.ofBits .f32 0x437F0000#32))))

/-- The body's zero-point column: per row, 0 − lo over the row's scale, clipped into [−10⁴, 10⁴]. -/
def zeroColumn (P : FVec Ideal S1x256x4096 .f32) : FVec Ideal S1x256x1 .f32 :=
  minimumf (broadcast S1x256x1 (Scalar.ofBits .f32 0x461C4000#32))
    (maximumf (broadcast S1x256x1 (Scalar.ofBits .f32 0xC61C4000#32))
      (divf
        (subf (broadcast S1x256x1 (Scalar.ofBits .f32 0x00000000#32))
          (shapeCast S1x256x1 (multiReduction .minimumf [2] S1x256 P 0x7F800000#32 reduces_S1x256x4096_S1x256 (.inl rfl) rfl) shapeCasts_S1x256_S1x256x1))
        (scaleColumn P)))

/-- The body's result from the block and the two columns spread along the rows. -/
theorem payload_eq (P : FVec Ideal S1x256x4096 .f32) :
    k0_pay1 (F := Ideal) P
      = mulf
          (subf
            (minimumf (broadcast S1x256x4096 (Scalar.ofBits .f32 0x437F0000#32))
              (maximumf (broadcast S1x256x4096 (Scalar.ofBits .f32 0x00000000#32))
                (addf (roundeven (divf P (broadcastTo S1x256x4096 (scaleColumn P) broadcasts_S1x256x1_S1x256x4096)))
                  (broadcastTo S1x256x4096 (zeroColumn P) broadcasts_S1x256x1_S1x256x4096))))
            (broadcastTo S1x256x4096 (zeroColumn P) broadcasts_S1x256x1_S1x256x4096))
          (broadcastTo S1x256x4096 (scaleColumn P) broadcasts_S1x256x1_S1x256x4096) := rfl

/-- Rounding to nearest even, read at an index. -/
theorem roundeven_apply {s : Shape} {φ : FTy} (a : FVec Ideal s φ) (i : s.Idx) :
    roundeven a i = Ideal.liftRound Ideal.roundHalfEven (a i) := rfl

/-- The scale column at row (z, r) is the scale of that row's largest and smallest entries. -/
theorem scaleColumn_apply (P : FVec Ideal S1x256x4096 .f32) (z : Fin 1) (r : Fin 256) (w : Fin 1) :
    scaleColumn P (ix3 z r w) = scale (blockRowMax P z r) (blockRowMin P z r) := by
  unfold scaleColumn
  rw [minimumf_apply, maximumf_apply, divf_apply, subf_apply, broadcast_apply, broadcast_apply, broadcast_apply,
    column_apply, column_apply, lane_max, lane_min]
  rfl

/-- The zero-point column at row (z, r) is the zero point of that row's smallest entry and scale. -/
theorem zeroColumn_apply (P : FVec Ideal S1x256x4096 .f32) (z : Fin 1) (r : Fin 256) (w : Fin 1) :
    zeroColumn P (ix3 z r w)
      = zeroPoint (blockRowMin P z r) (scale (blockRowMax P z r) (blockRowMin P z r)) := by
  unfold zeroColumn
  rw [minimumf_apply, maximumf_apply, divf_apply, subf_apply, broadcast_apply, broadcast_apply, broadcast_apply,
    column_apply, lane_min, scaleColumn_apply]
  rfl

/-- THE BODY'S RESULT AT ENTRY (z, r, d) of a block: `requant` of the block's entry at row r's scale and zero point. -/
theorem payload_apply (P : FVec Ideal S1x256x4096 .f32) (z : Fin 1) (r : Fin 256) (d : Fin 4096) :
    k0_pay1 (F := Ideal) P (ix3 z r d)
      = requant (P (ix3 z r d)) (scale (blockRowMax P z r) (blockRowMin P z r))
          (zeroPoint (blockRowMin P z r) (scale (blockRowMax P z r) (blockRowMin P z r))) := by
  rw [payload_eq, mulf_apply, subf_apply, minimumf_apply, maximumf_apply, addf_apply, roundeven_apply, divf_apply,
    broadcast_apply, broadcast_apply, spread_apply, spread_apply, scaleColumn_apply, zeroColumn_apply]
  rfl

end Cert.Quant.Kernel

end
-- ==== Proof.KernelArray.lean ====
/-
  From the kernel's blocks to its result array.

  The grid has 4 × 16 points; point (b, q) reads and writes the block of batch b, rows 256q … 256q + 255, all 4096
  features. A row never straddles two blocks, so a block's row is a whole row of the array: the row's smallest and
  largest entry, scale and zero point computed inside the block are the array row's. Hence what point (b, q) writes
  back is block (b, q) of `fakeQuant` of the input array; the 64 blocks tile the array; so after the run the result
  array is `fakeQuant` of the input.
-/
import proofs.«180864_j14207751815302_1_alg».proof.Proof.Gen.KernelIdeal.Frame
import proofs.«180864_j14207751815302_1_alg».proof.Proof.KernelRow
import Idealize.ShloMosaic.Lib.Pipeline.Value
import Idealize.ShloMosaic.Lib.Tactic

noncomputable section

namespace Cert.Quant.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Quant

variable (m : (ℓ : Loc nD τ sig) → Buf (Elt Ideal) ℓ) (ρ : Dev nD → PrngReg)

theorem offsets_zero : (![0, 0, 0] : Fin 3 → Nat) = fun _ => 0 := funext fun a => by fin_cases a <;> rfl

/-- ONE POINT, over variables: if a block `P` holds rows `256q … 256q + 255` of batch `b` of the array `x`, then the body's
    result at block entry `y` is `fakeQuant x` at the array index `i` that lies over `y`. -/
theorem point_eq (x : FVec Ideal S4x4096x4096 .f32) (P : FVec Ideal S1x256x4096 .f32) (b : Fin 4) (q : Nat) (hq : q < 16)
    (hP : ∀ (z : Fin 1) (r : Fin 256) (k : Fin 4096), P (ix3 z r k) = x (ix3 b ⟨q * 256 + r.val, by have := r.isLt; omega⟩ k))
    (y : S1x256x4096.Idx) (i : S4x4096x4096.Idx) (hi0 : i 0 = b) (hi1 : (i 1).val = q * 256 + (y 1).val)
    (hi2 : (i 2).val = (y 2).val) :
    k0_pay1 (F := Ideal) P y = fakeQuant x i := by
  obtain ⟨z, r, d, rfl⟩ : ∃ (z : Fin 1) (r : Fin 256) (d : Fin 4096), y = ix3 z r d := ⟨y 0, y 1, y 2, eq_ix3 y⟩
  have hi : i = ix3 b ⟨q * 256 + r.val, by have := r.isLt; omega⟩ d := by
    funext a
    match a with
    | ⟨0, _⟩ => exact hi0
    | ⟨1, _⟩ => exact Fin.ext hi1
    | ⟨2, _⟩ => exact Fin.ext hi2
  rw [hi, payload_apply, hP z r d]
  have emin : blockRowMin P z r = rowMin x b ⟨q * 256 + r.val, by have := r.isLt; omega⟩ := by
    unfold blockRowMin rowMin
    simp only [hP z r]
  have emax : blockRowMax P z r = rowMax x b ⟨q * 256 + r.val, by have := r.isLt; omega⟩ := by
    unfold blockRowMax rowMax
    simp only [hP z r]
  rw [emin, emax]
  rfl

/-- The two windows' index maps, decided over the 64 points: the input block moves with the output block, both span
    the whole feature axis, and the block indices stay in the grid's ranges. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) < 4 ∧ win0_1.index t (1 : Fin 3) < 16 :=
  (by decide +kernel : ∀ t : Fin grid0.N, _)

/-- Every (batch, row block) is SOME point's. -/
theorem index_onto : ∀ (q0 : Fin 4) (q1 : Fin 16), ∃ t : Fin cfg0.N, win0_1.index t = ![q0.val, q1.val, 0] :=
  (by decide +kernel : ∀ (q0 : Fin 4) (q1 : Fin 16), ∃ t : Fin grid0.N, win0_1.index t = ![q0.val, q1.val, 0])

/-- WHAT POINT `t` WRITES BACK is block `t` of `fakeQuant` of the input array. -/
theorem flushed_eq (c : Dev nD) (t : Fin cfg0.N) :
    (dats m 0 c).flushed 1 t
      = ((cfg0.win 1).blk t).view.read (Elt Ideal) (fakeQuant (V m c main_arg0)) := by
  show (cfg0.win 1).cut (grid0.coords t) ((dats m 0 c).after 1 t) = _
  rw [after0_1]
  unfold out0_1
  rw [View.canon_unit_zero offsets_zero]
  simp only [View.ld_unit_zero (S := S1x256x4096) offsets_zero]
  obtain ⟨e0, e1, e2, e3, b0, b1⟩ := index_facts t
  funext y
  have hy0 : (y 0).val < 1 := (y 0).isLt
  have hy1 : (y 1).val < 256 := (y 1).isLt
  have hy2 : (y 2).val < 4096 := (y 2).isLt
  refine point_eq (V m c main_arg0) (iblk m c 0 t) ⟨win0_1.index t (0 : Fin 3), b0⟩ (win0_1.index t (1 : Fin 3)) b1
    (fun z r k => ?_) y (((cfg0.win 1).blk t).view.emb y) (Fin.ext ?_) ?_ ?_
  · unfold iblk
    rw [View.read_apply]
    show V m c main_arg0 (((cfg0.win 0).blk t).view.emb (ix3 z r k)) = V m c main_arg0 _
    congr 1
    funext a
    apply Fin.ext
    have hz : z.val < 1 := z.isLt
    match a with
    | ⟨0, _⟩ => show win0_0.index t (0 : Fin 3) * 1 + 1 * z.val = win0_1.index t (0 : Fin 3); omega
    | ⟨1, _⟩ => show win0_0.index t (1 : Fin 3) * 256 + 1 * r.val = win0_1.index t (1 : Fin 3) * 256 + r.val; omega
    | ⟨2, _⟩ => show win0_0.index t (2 : Fin 3) * 4096 + 1 * k.val = k.val; omega
  · show win0_1.index t (0 : Fin 3) * 1 + 1 * (y 0).val = win0_1.index t (0 : Fin 3); omega
  · show win0_1.index t (1 : Fin 3) * 256 + 1 * (y 1).val = win0_1.index t (1 : Fin 3) * 256 + (y 1).val; omega
  · show win0_1.index t (2 : Fin 3) * 4096 + 1 * (y 2).val = (y 2).val; omega

/-- An index of the array is in point `t`'s block iff each coordinate is in the block's range on its axis. -/
theorem mem_block (t : Fin cfg0.N) (i : S4x4096x4096.Idx) :
    i ∈ ((cfg0.win 1).blk t).view.set ↔ ∀ a : Fin 3, win0_1.index t a * S1x256x4096.size a ≤ (i a).val
      ∧ (i a).val < win0_1.index t a * S1x256x4096.size a + S1x256x4096.size a := by
  show i ∈ ((View.whole main_v0).slice (win0_1.rect t)).set ↔ _
  rw [View.set_slice_whole, Rect.mem_set_unit]
  exact Iff.rfl

/-- The 64 blocks cover the array: index (b, s, d) lies in the block of batch b and row block s / 256. -/
theorem blocks_cover (i : S4x4096x4096.Idx) :
    ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 4096 ≤ (i 2).val ∧ (i 2).val < win0_1.index t (2 : Fin 3) * 4096 + 4096; omega

/-- THE RESULT ARRAY after the run is `fakeQuant` of the input array. -/
theorem final_eq (c : Dev nD) :
    (dats m 0 c).arrAt 1 cfg0.N = fakeQuant (m ((c : Thread nD τ).loc main_arg0)) :=
  (dats m 0 c).arrAt_eq_of_cover 1 (fakeQuant (V m c main_arg0)) (fun t _ => flushed_eq m c t) blocks_cover

/-- THE KERNEL'S RUN, read: every weakly fair execution ends with the result array at `fakeQuant` of the input and the
    input unchanged. -/
theorem run : θ_run defs (onTc (τ := τ) (main (F := Ideal))) ⟨m, fun _ => 0, ρ⟩ fun r => ∀ c : Dev nD,
      r.2.mem ((c : Thread nD τ).loc main_v0) = fakeQuant (m ((c : Thread nD τ).loc main_arg0))
      ∧ r.2.mem ((c : Thread nD τ).loc main_arg0) = m ((c : Thread nD τ).loc main_arg0) :=
  (θ_run defs _ _).mono (fun r h c => ⟨((h c).1 1).trans (final_eq m c),
      ((h c).1 0).trans (((dats m 0 c).arrAt_in 0 rfl _).trans ((A_eq m c 0).trans (V_main_arg0 m c)))⟩)
    (run_main m ρ)

end Cert.Quant.Kernel

end
-- ==== Proof.lean ====
/-
  Per-token activation fake quantization: a Pallas kernel against its jnp reference, equal on the extended reals.

  Both programs take x : f32[4, 4096, 4096] and, for every row x(b, r, ·) of 4096 features, compute the row's smallest
  and largest entry, a scale s = clip((hi − lo)/255, ε, 10⁴) and a zero point z = clip(−lo/s, −10⁴, 10⁴), and map each
  entry to (clip(round(x/s) + z, 0, 255) − z)·s. The kernel does this on 64 blocks of 256 whole rows; the reference on
  the whole array. All float constants are the same binary words on both sides.

  The proof names that function once (`Cert.Quant.fakeQuant`, Proof/QuantSpec.lean) and shows each program computes it:
  the kernel block by block (Proof/KernelRow.lean: one block entry; Proof/KernelArray.lean: a block's row is an array row,
  and the blocks tile the array), the reference stage by stage (Proof/RefIsQuant.lean). The programs differ in two
  spellings. The kernel writes the zero point's numerator 0 − lo, the reference −lo: equal on every extended real. The
  reference rounds "straight through", v + (round v − v) with v = x/s, the kernel takes round v: equal exactly when v is
  a real number, and v is real because x is finite — this is where the precondition is used (Proof/FiniteInput.lean) —
  and s, clipped into [ε, 10⁴], is a positive real whatever the row holds.

  The three frames are the generated ones (the reference's from its generated run); the ideal pass rewrote nothing, so
  `preserves` has no conjunct.
-/
import proofs.«180864_j14207751815302_1_alg».proof.Defs
import proofs.«180864_j14207751815302_1_alg».proof.Proof.Gen.Kernel
import proofs.«180864_j14207751815302_1_alg».proof.Proof.Gen.Kernel.Skeleton
import proofs.«180864_j14207751815302_1_alg».proof.Proof.Gen.Kernel.Launch
import proofs.«180864_j14207751815302_1_alg».proof.Proof.Gen.Kernel.Points
import proofs.«180864_j14207751815302_1_alg».proof.Proof.Gen.Kernel.Frame
import proofs.«180864_j14207751815302_1_alg».proof.Proof.Gen.KernelIdeal
import proofs.«180864_j14207751815302_1_alg».proof.Proof.Gen.KernelIdeal.Skeleton
import proofs.«180864_j14207751815302_1_alg».proof.Proof.Gen.KernelIdeal.Launch
import proofs.«180864_j14207751815302_1_alg».proof.Proof.Gen.KernelIdeal.Points
import proofs.«180864_j14207751815302_1_alg».proof.Proof.Gen.KernelIdeal.Frame
import proofs.«180864_j14207751815302_1_alg».proof.Proof.Gen.ReferenceIdeal
import proofs.«180864_j14207751815302_1_alg».proof.Proof.Gen.Pre_finite_inputs
import proofs.«180864_j14207751815302_1_alg».proof.Proof.Gen.ReferenceIdeal.Run
import proofs.«180864_j14207751815302_1_alg».proof.Proof.Gen.ReferenceIdeal.Read
import proofs.«180864_j14207751815302_1_alg».proof.Proof.FiniteInput
import proofs.«180864_j14207751815302_1_alg».proof.Proof.RefIsQuant
import proofs.«180864_j14207751815302_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at `fakeQuant` of the input: the kernel's on any input, the reference's on a finite one. -/
theorem algebraic : Cert.algebraic_KernelIdeal_ReferenceIdeal := by
  intro m ρ m' ρ' hpre hagree
  refine ⟨fun c => Cert.Quant.fakeQuant (m ((c.tc : Thread Cert.KernelIdeal.nD Cert.KernelIdeal.τ).loc Cert.KernelIdeal.main_arg0)),
    Cert.Quant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, hagree c]
  exact Cert.Quant.Ref.ref_eq _ (Cert.Quant.real_of_finite _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
